-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x300x512 : Shape := ⟨3, ![4, 300, 512]⟩
abbrev S4x100x512 : Shape := ⟨3, ![4, 100, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S4x300x512 : S_.BroadcastsInDim S4x300x512 (![] : Fin 0 → Fin S4x300x512.rank)
  reducesTo_S4x300x512_S_d0_1_2 : S4x300x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S4x300x512 .f32) (main_arg1 : FVec F S4x100x512 .f32) (main_arg2 : FVec F S512x512 .f32) (main_arg3 : FVec F S512 .f32) (main_arg4 : FVec F S512x512 .f32) (main_arg5 : FVec F S512 .f32) (main_arg6 : FVec F S512x1024 .f32) (main_arg7 : FVec F S1024 .f32) : IVec S_ 1 :=
  let main_v0 : FVec F S4x300x512 .f32 := Host.absf main_arg0
  let main_cst : FVec F S_ .f32 := constant S_ .f32 0x7F800000#32
  let main_v1 : FVec F S4x300x512 .f32 := broadcastInDim S4x300x512 ![] bcast_S_S4x300x512 main_cst
  let main_v2 : IVec S4x300x512 1 := cmpf .olt main_v0 main_v1
  let main_c : IVec S_ 1 := constantI S_ 1 1#1
  let main_v3 : IVec S_ 1 := (fun x v => Host.reduce IntOp.andi x v reducesTo_S4x300x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x300x512 : Shape := ⟨3, ![4, 300, 512]⟩
abbrev S4x100x512 : Shape := ⟨3, ![4, 100, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩
abbrev S4x312x512 : Shape := ⟨3, ![4, 312, 512]⟩
abbrev S1x512 : Shape := ⟨2, ![1, 512]⟩
abbrev S1x1024 : Shape := ⟨2, ![1, 1024]⟩
abbrev S1x312x512 : Shape := ⟨3, ![1, 312, 512]⟩
abbrev S312x512 : Shape := ⟨2, ![312, 512]⟩
abbrev S1x100x512 : Shape := ⟨3, ![1, 100, 512]⟩
abbrev S100x512 : Shape := ⟨2, ![100, 512]⟩
abbrev S4x312x100x1024 : Shape := ⟨4, ![4, 312, 100, 1024]⟩
abbrev S1x24x512 : Shape := ⟨3, ![1, 24, 512]⟩
abbrev S1x24x100x1024 : Shape := ⟨4, ![1, 24, 100, 1024]⟩
abbrev S24x512 : Shape := ⟨2, ![24, 512]⟩
abbrev S24x1x512 : Shape := ⟨3, ![24, 1, 512]⟩
abbrev S24x100x512 : Shape := ⟨3, ![24, 100, 512]⟩
abbrev S2400x512 : Shape := ⟨2, ![2400, 512]⟩
abbrev S2400x1024 : Shape := ⟨2, ![2400, 1024]⟩
abbrev S24x100x1024 : Shape := ⟨3, ![24, 100, 1024]⟩
abbrev S4x300x100x1024 : Shape := ⟨4, ![4, 300, 100, 1024]⟩

abbrev nBuf : Space → Nat
  | .hbm => 21
  | .vmem => 20
  | .smem => 0
  | _ => 0

abbrev bufTy : (tb : Table) → Fin (tcTables nBuf tb) → BufTy
  | .hbm, ⟨0, _⟩ => ⟨S4x300x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S4x312x512, .f32⟩
  | .hbm, ⟨11, _⟩ => ⟨S512x512, .bf16⟩
  | .hbm, ⟨12, _⟩ => ⟨S512x512, .bf16⟩
  | .hbm, ⟨13, _⟩ => ⟨S512x1024, .bf16⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S4x312x512, .f32⟩
  | .hbm, ⟨18, _⟩ => ⟨S4x100x512, .f32⟩
  | .hbm, ⟨19, _⟩ => ⟨S4x312x100x1024, .f32⟩
  | .hbm, ⟨20, _⟩ => ⟨S4x300x100x1024, .f32⟩
  | .local _ .vmem, ⟨0, _⟩ => ⟨S1x312x512, .f32⟩
  | .local _ .vmem, ⟨1, _⟩ => ⟨S1x312x512, .f32⟩
  | .local _ .vmem, ⟨2, _⟩ => ⟨S512x512, .bf16⟩
  | .local _ .vmem, ⟨3, _⟩ => ⟨S1x512, .f32⟩
  | .local _ .vmem, ⟨4, _⟩ => ⟨S1x312x512, .f32⟩
  | .local _ .vmem, ⟨5, _⟩ => ⟨S1x312x512, .f32⟩
  | .local _ .vmem, ⟨6, _⟩ => ⟨S1x100x512, .f32⟩
  | .local _ .vmem, ⟨7, _⟩ => ⟨S1x100x512, .f32⟩
  | .local _ .vmem, ⟨8, _⟩ => ⟨S512x512, .bf16⟩
  | .local _ .vmem, ⟨9, _⟩ => ⟨S1x512, .f32⟩
  | .local _ .vmem, ⟨10, _⟩ => ⟨S1x100x512, .f32⟩
  | .local _ .vmem, ⟨11, _⟩ => ⟨S1x100x512, .f32⟩
  | .local _ .vmem, ⟨12, _⟩ => ⟨S1x24x512, .f32⟩
  | .local _ .vmem, ⟨13, _⟩ => ⟨S1x24x512, .f32⟩
  | .local _ .vmem, ⟨14, _⟩ => ⟨S1x100x512, .f32⟩
  | .local _ .vmem, ⟨15, _⟩ => ⟨S1x100x512, .f32⟩
  | .local _ .vmem, ⟨16, _⟩ => ⟨S512x1024, .bf16⟩
  | .local _ .vmem, ⟨17, _⟩ => ⟨S1x1024, .f32⟩
  | .local _ .vmem, ⟨18, _⟩ => ⟨S1x24x100x1024, .f32⟩
  | .local _ .vmem, ⟨19, _⟩ => ⟨S1x24x100x1024, .f32⟩
  | _, _ => ⟨S4x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x312x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x312x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x100x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x100x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 13], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x24x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x100x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x24x100x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  pads_S4x300x512_S4x312x512_000_0120_000 : S4x300x512.Pads (![0, 0, 0] : Fin 3 → Nat) ![0, 12, 0] ![0, 0, 0] S4x312x512
  h_S_ : 0 < S_.numel
  bitsLt_bf16_f32 : FTy.bits .bf16 < FTy.bits .f32
  shapeCasts_S512_S1x512 : S512.ShapeCasts S1x512
  shapeCasts_S1024_S1x1024 : S1024.ShapeCasts S1x1024
  inb_S1x312x512_S1x312x512_0_0_0 : ∀ a, (![0, 0, 0] : Fin 3 → Nat) a + S1x312x512.size a ≤ S1x312x512.size a
  h_S1x312x512 : 0 < S1x312x512.numel
  shapeCasts_S1x312x512_S312x512 : S1x312x512.ShapeCasts S312x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S312x512 : S1x512.Broadcasts S312x512
  shapeCasts_S312x512_S1x312x512 : S312x512.ShapeCasts S1x312x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  broadcasts_S1x512_S100x512 : S1x512.Broadcasts S100x512
  shapeCasts_S100x512_S1x100x512 : S100x512.ShapeCasts S1x100x512
  inb_S1x24x512_S1x24x512_0_0_0 : ∀ a, (![0, 0, 0] : Fin 3 → Nat) a + S1x24x512.size a ≤ S1x24x512.size a
  h_S1x24x512 : 0 < S1x24x512.numel
  shapeCasts_S1x24x512_S24x512 : S1x24x512.ShapeCasts S24x512
  shapeCasts_S24x512_S24x1x512 : S24x512.ShapeCasts S24x1x512
  broadcasts_S24x1x512_S24x100x512 : S24x1x512.Broadcasts S24x100x512
  broadcasts_S1x100x512_S24x100x512 : S1x100x512.Broadcasts S24x100x512
  shapeCasts_S24x100x512_S2400x512 : S24x100x512.ShapeCasts S2400x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2400x1024 : S1x1024.Broadcasts S2400x1024
  shapeCasts_S2400x1024_S24x100x1024 : S2400x1024.ShapeCasts S24x100x1024
  inb_S1x24x100x1024_S1x24x100x1024_0_0_0_0 : ∀ a, (![0, 0, 0, 0] : Fin 4 → Nat) a + S1x24x100x1024.size a ≤ S1x24x100x1024.size a
  h_S1x24x100x1024 : 0 < S1x24x100x1024.numel
  shapeCasts_S1x24x100x1024_S24x100x1024 : S1x24x100x1024.ShapeCasts S24x100x1024
  shapeCasts_S24x100x1024_S1x24x100x1024 : S24x100x1024.ShapeCasts S1x24x100x1024
  slices_S4x312x100x1024_S4x300x100x1024_0_0_0_0 : S4x312x100x1024.Slices ![0, 0, 0, 0] S4x300x100x1024
  dot_S312x512_S512x512_S312x512_1_0_0_1_n_n_wf : DotDims.WF S312x512 S512x512 S312x512 [1] [0] [0] [1] [] []
  dot_S100x512_S512x512_S100x512_1_0_0_1_n_n_wf : DotDims.WF S100x512 S512x512 S100x512 [1] [0] [0] [1] [] []
  dot_S2400x512_S512x1024_S2400x1024_1_0_0_1_n_n_wf : DotDims.WF S2400x512 S512x1024 S2400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x312x512.size a ≤ S4x312x512.size a
  hwx0_0 : ∀ i : grid0.Coords, EltTy.bits .f32 = 32 ∨ (Rect.block (s := S4x312x512) S1x312x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x312x512.size a ≤ S4x312x512.size a
  hwx0_3 : ∀ i : grid0.Coords, EltTy.bits .f32 = 32 ∨ (Rect.block (s := S4x312x512) S1x312x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x100x512.size a ≤ S4x100x512.size a
  hwx1_0 : ∀ i : grid1.Coords, EltTy.bits .f32 = 32 ∨ (Rect.block (s := S4x100x512) S1x100x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x100x512.size a ≤ S4x100x512.size a
  hwx1_3 : ∀ i : grid1.Coords, EltTy.bits .f32 = 32 ∨ (Rect.block (s := S4x100x512) S1x100x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x24x512.size a ≤ S4x312x512.size a
  hwx2_0 : ∀ i : grid2.Coords, EltTy.bits .f32 = 32 ∨ (Rect.block (s := S4x312x512) S1x24x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x100x512.size a ≤ S4x100x512.size a
  hwx2_1 : ∀ i : grid2.Coords, EltTy.bits .f32 = 32 ∨ (Rect.block (s := S4x100x512) S1x100x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x1024.size a
  hwx2_2 : ∀ i : grid2.Coords, EltTy.bits .bf16 = 32 ∨ (Rect.block (s := S512x1024) S512x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x1024.size a
  hwx2_3 : ∀ i : grid2.Coords, EltTy.bits .f32 = 32 ∨ (Rect.block (s := S1x1024) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x24x100x1024.size a ≤ S4x312x100x1024.size a
  hwx2_4 : ∀ i : grid2.Coords, EltTy.bits .f32 = 32 ∨ (Rect.block (s := S4x312x100x1024) S1x24x100x1024.size (cc2_transform_4 i) (hinb2_4 i)).WholeWords (EltTy.packing .f32)

variable [Facts₀]

def dot_S312x512_S512x512_S312x512_1_0_0_1_n_n : DotDims S312x512 S512x512 S312x512 where
  lhsContracting := [1]
  rhsContracting := [0]
  lhsNonContracting := [0]
  rhsNonContracting := [1]
  lhsBatch := []
  rhsBatch := []
  wf := dot_S312x512_S512x512_S312x512_1_0_0_1_n_n_wf
def dot_S100x512_S512x512_S100x512_1_0_0_1_n_n : DotDims S100x512 S512x512 S100x512 where
  lhsContracting := [1]
  rhsContracting := [0]
  lhsNonContracting := [0]
  rhsNonContracting := [1]
  lhsBatch := []
  rhsBatch := []
  wf := dot_S100x512_S512x512_S100x512_1_0_0_1_n_n_wf
def dot_S2400x512_S512x1024_S2400x1024_1_0_0_1_n_n : DotDims S2400x512 S512x1024 S2400x1024 where
  lhsContracting := [1]
  rhsContracting := [0]
  lhsNonContracting := [0]
  rhsNonContracting := [1]
  lhsBatch := []
  rhsBatch := []
  wf := dot_S2400x512_S512x1024_S2400x1024_1_0_0_1_n_n_wf

abbrev win0_0 : Pipeline.Window sig grid0 :=
  Pipeline.Window.ofSpec (Memref.whole main_v0) S1x312x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x312x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x100x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x100x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x24x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x100x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x24x100x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x300x512 : Shape := ⟨3, ![4, 300, 512]⟩
abbrev S4x100x512 : Shape := ⟨3, ![4, 100, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x1x512 : Shape := ⟨3, ![1, 1, 512]⟩
abbrev S4x300x1x512 : Shape := ⟨4, ![4, 300, 1, 512]⟩
abbrev S4x1x100x512 : Shape := ⟨4, ![4, 1, 100, 512]⟩
abbrev S4x300x100x512 : Shape := ⟨4, ![4, 300, 100, 512]⟩
abbrev S4x300x100x1024 : Shape := ⟨4, ![4, 300, 100, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x300x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S4x300x512, .f32⟩
  | .hbm, ⟨9, _⟩ => ⟨S1x1x512, .f32⟩
  | .hbm, ⟨10, _⟩ => ⟨S4x300x512, .f32⟩
  | .hbm, ⟨11, _⟩ => ⟨S4x300x512, .f32⟩
  | .hbm, ⟨12, _⟩ => ⟨S4x100x512, .f32⟩
  | .hbm, ⟨13, _⟩ => ⟨S1x1x512, .f32⟩
  | .hbm, ⟨14, _⟩ => ⟨S4x100x512, .f32⟩
  | .hbm, ⟨15, _⟩ => ⟨S4x100x512, .f32⟩
  | .hbm, ⟨16, _⟩ => ⟨S4x300x1x512, .f32⟩
  | .hbm, ⟨17, _⟩ => ⟨S4x1x100x512, .f32⟩
  | .hbm, ⟨18, _⟩ => ⟨S4x300x100x512, .f32⟩
  | .hbm, ⟨19, _⟩ => ⟨S4x300x100x512, .f32⟩
  | .hbm, ⟨20, _⟩ => ⟨S4x300x100x512, .f32⟩
  | .hbm, ⟨21, _⟩ => ⟨S4x300x100x512, .f32⟩
  | .hbm, ⟨22, _⟩ => ⟨S4x300x100x1024, .f32⟩
  | .hbm, ⟨23, _⟩ => ⟨S1x1x1x1024, .f32⟩
  | .hbm, ⟨24, _⟩ => ⟨S4x300x100x1024, .f32⟩
  | .hbm, ⟨25, _⟩ => ⟨S4x300x100x1024, .f32⟩
  | _, _ => ⟨S4x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x300x512_0_1_2 : S1x1x512.BroadcastsInDim S4x300x512 (![0, 1, 2] : Fin 3 → Fin S4x300x512.rank)
  bcast_S1x1x512_S4x100x512_0_1_2 : S1x1x512.BroadcastsInDim S4x100x512 (![0, 1, 2] : Fin 3 → Fin S4x100x512.rank)
  bcast_S4x300x512_S4x300x1x512_0_1_3 : S4x300x512.BroadcastsInDim S4x300x1x512 (![0, 1, 3] : Fin 3 → Fin S4x300x1x512.rank)
  bcast_S4x100x512_S4x1x100x512_0_2_3 : S4x100x512.BroadcastsInDim S4x1x100x512 (![0, 2, 3] : Fin 3 → Fin S4x1x100x512.rank)
  bcast_S4x300x1x512_S4x300x100x512_0_1_2_3 : S4x300x1x512.BroadcastsInDim S4x300x100x512 (![0, 1, 2, 3] : Fin 4 → Fin S4x300x100x512.rank)
  bcast_S4x1x100x512_S4x300x100x512_0_1_2_3 : S4x1x100x512.BroadcastsInDim S4x300x100x512 (![0, 1, 2, 3] : Fin 4 → Fin S4x300x100x512.rank)
  bcast_S1024_S1x1x1x1024_3 : S1024.BroadcastsInDim S1x1x1x1024 (![3] : Fin 1 → Fin S1x1x1x1024.rank)
  bcast_S1x1x1x1024_S4x300x100x1024_0_1_2_3 : S1x1x1x1024.BroadcastsInDim S4x300x100x1024 (![0, 1, 2, 3] : Fin 4 → Fin S4x300x100x1024.rank)
  dot_S4x300x512_S512x512_S4x300x512_2_0_01_1_n_n_wf : DotDims.WF S4x300x512 S512x512 S4x300x512 [2] [0] [0, 1] [1] [] []
  dot_S4x100x512_S512x512_S4x100x512_2_0_01_1_n_n_wf : DotDims.WF S4x100x512 S512x512 S4x100x512 [2] [0] [0, 1] [1] [] []
  dot_S4x300x100x512_S512x1024_S4x300x100x1024_3_0_012_1_n_n_wf : DotDims.WF S4x300x100x512 S512x1024 S4x300x100x1024 [3] [0] [0, 1, 2] [1] [] []

variable [Facts₀]

def dot_S4x300x512_S512x512_S4x300x512_2_0_01_1_n_n : DotDims S4x300x512 S512x512 S4x300x512 where
  lhsContracting := [2]
  rhsContracting := [0]
  lhsNonContracting := [0, 1]
  rhsNonContracting := [1]
  lhsBatch := []
  rhsBatch := []
  wf := dot_S4x300x512_S512x512_S4x300x512_2_0_01_1_n_n_wf
def dot_S4x100x512_S512x512_S4x100x512_2_0_01_1_n_n : DotDims S4x100x512 S512x512 S4x100x512 where
  lhsContracting := [2]
  rhsContracting := [0]
  lhsNonContracting := [0, 1]
  rhsNonContracting := [1]
  lhsBatch := []
  rhsBatch := []
  wf := dot_S4x100x512_S512x512_S4x100x512_2_0_01_1_n_n_wf
def dot_S4x300x100x512_S512x1024_S4x300x100x1024_3_0_012_1_n_n : DotDims S4x300x100x512 S512x1024 S4x300x100x1024 where
  lhsContracting := [3]
  rhsContracting := [0]
  lhsNonContracting := [0, 1, 2]
  rhsNonContracting := [1]
  lhsBatch := []
  rhsBatch := []
  wf := dot_S4x300x100x512_S512x1024_S4x300x100x1024_3_0_012_1_n_n_wf

class Facts : Prop extends Facts₀ where

variable [Facts]
-- ==== Proof.KernelRun.lean ====
/-
  The idealized kernel's program, run: its @main is three stretches of host operations, three kernel launches and a
  closing host operation, and every weakly fair execution of it terminates without a fault in a memory that holds,
  at every buffer that outlives a launch, the contents obtained by folding those seven segments over the launch
  memory — the host stretches by their operations, each launch by what its write-backs leave in its arrays.

  The statement is the pipeline library's launch theorem for a program of several kernel regions, applied to the
  segments of this program; its post keeps the final contents of EVERY such buffer (the result's among them), where a
  frame claim keeps only the arguments'.
-/
import proofs.«126443_j22960895165074_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and each buffer that outlives the launches ends
    at the fold of the program's segments over the launch memory (`Gen.W7`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run, read at the result and at the eight arguments: the result buffer ends at the fold's contents
    for it, and no segment writes an argument. -/
theorem run_result : θ_run defs (onTc (τ := τ) (main (F := F))) ⟨m, fun _ => 0, ρ⟩ (fun r => ∀ c : Dev nD,
      r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)
    (run_all m ρ)

end Cert.KernelIdeal.Whole

end
-- ==== Proof.Spec.lean ====
/-
  THE TWO FUNCTIONS THE PROGRAMS COMPUTE, index by index on the extended reals; no program is imported here.

  * `affineRows x w β` — an affine map applied to every row of a stack:
        out(b, s, d) = Σ_k x(b, s, k) · w(k, d) + β(0, d)            x : [B, S, K], w : [K, D], β : [1, D].
  * `jointRows f g w β` — every row of `f` added to every row of `g` of the same batch entry, squashed by tanh,
    and mapped affinely:
        out(b, t, u, v) = Σ_d tanh(f(b, t, d) + g(b, u, d)) · w(d, v) + β(0, v)
                                                     f : [B, T, D], g : [B, U, D], w : [D, V], β : [1, V].

  Both are sums over a finite index set, so neither depends on an order of summation or a tiling; an entry of
  `affineRows` depends on ONE row of `x`, and an entry of `jointRows` on one row of `f` and one row of `g`.
-/
import Idealize.ShloMosaic.Lib.ValueIdx
import Idealize.ShloMosaic.PureOps.Ideal

noncomputable section

open scoped BigOperators

namespace Cert.Joint

open Idealize.ShloMosaic Idealize.ShloMosaic.ValueIdx

/-- An affine map applied to every row of a stack [B, S, K]: out(b, s, d) = Σ_k x(b, s, k) · w(k, d) + β(0, d). -/
def affineRows {B S K D : ℕ} (x : (⟨3, ![B, S, K]⟩ : Shape).Idx → EReal) (w : (⟨2, ![K, D]⟩ : Shape).Idx → EReal)
    (β : (⟨2, ![1, D]⟩ : Shape).Idx → EReal) : (⟨3, ![B, S, D]⟩ : Shape).Idx → EReal :=
  fun i => (∑ k : Fin K, x (ix3 (i 0) (i 1) k) * w (ix2 k (i 2))) + β (ix2 (0 : Fin 1) (i 2))

theorem affineRows_apply {B S K D : ℕ} (x : (⟨3, ![B, S, K]⟩ : Shape).Idx → EReal) (w : (⟨2, ![K, D]⟩ : Shape).Idx → EReal)
    (β : (⟨2, ![1, D]⟩ : Shape).Idx → EReal) (b : Fin B) (s : Fin S) (d : Fin D) :
    affineRows x w β (ix3 b s d) = (∑ k : Fin K, x (ix3 b s k) * w (ix2 k d)) + β (ix2 (0 : Fin 1) d) := rfl

/-- The joint network: out(b, t, u, v) = Σ_d tanh(f(b, t, d) + g(b, u, d)) · w(d, v) + β(0, v). -/
def jointRows {B T U D V : ℕ} (f : (⟨3, ![B, T, D]⟩ : Shape).Idx → EReal) (g : (⟨3, ![B, U, D]⟩ : Shape).Idx → EReal)
    (w : (⟨2, ![D, V]⟩ : Shape).Idx → EReal) (β : (⟨2, ![1, V]⟩ : Shape).Idx → EReal) :
    (⟨4, ![B, T, U, V]⟩ : Shape).Idx → EReal :=
  fun i => (∑ d : Fin D, Ideal.tanh (f (ix3 (i 0) (i 1) d) + g (ix3 (i 0) (i 2) d)) * w (ix2 d (i 3)))
    + β (ix2 (0 : Fin 1) (i 3))

theorem jointRows_apply {B T U D V : ℕ} (f : (⟨3, ![B, T, D]⟩ : Shape).Idx → EReal) (g : (⟨3, ![B, U, D]⟩ : Shape).Idx → EReal)
    (w : (⟨2, ![D, V]⟩ : Shape).Idx → EReal) (β : (⟨2, ![1, V]⟩ : Shape).Idx → EReal)
    (b : Fin B) (t : Fin T) (u : Fin U) (v : Fin V) :
    jointRows f g w β (ix4 b t u v)
      = (∑ d : Fin D, Ideal.tanh (f (ix3 b t d) + g (ix3 b u d)) * w (ix2 d v)) + β (ix2 (0 : Fin 1) v) := rfl

end Cert.Joint

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibFoldRows.lean ====
/-
  LAYOUT OPERATIONS OF A ROW-FOLDED BLOCK, READ AT AN INDEX — generic in the extents; nothing here depends on a program.

  A kernel that applies one matrix to every row of a stack [a, c, b] folds the two leading axes into one
  ([a, c, b] → [a·c, b]), multiplies, and unfolds the product ([a·c, n] → [a, c, n]). Row-major order makes row
  (r, q) of the stack row  r·c + q  of the folded matrix. Before the fold such a kernel often builds the stack
  from two smaller blocks by broadcasting: a [a, b] block along a new middle axis ([a, b] → [a, 1, b] → [a, c, b])
  and a [c, b] block along a new leading axis ([c, b] → [1, c, b] → [a, c, b]).

  * `shapeCast_fold_apply`    — [a, c, b] → [M, b]  with M = a·c, at (p, d) where p = r·c + q;
  * `shapeCast_unfold_apply`  — [M, n] → [a, c, n]  with M = a·c, at (r, q, v);
  * `shapeCast_ab_a1b_apply`  — [a, b] → [a, 1, b]  at (r, u, d);
  * `broadcastTo_a1b_acb_apply` — [a, 1, b] → [a, c, b]  at (r, q, d): the operand at (r, 0, d);
  * `broadcastTo_1cb_acb_apply` — [1, c, b] → [a, c, b]  at (r, q, d): the operand at (0, q, d);
  * `foldRow`, `foldRow_val`  — the folded row number r·c + q as an element of Fin M.
-/
import Idealize.ShloMosaic.Lib.ValueIdx
import Idealize.ShloMosaic.Lib.ValueLayout
import Idealize.ShloMosaic.Lib.Pipeline.Value

noncomputable section

namespace Cert.Lib.FoldRows

open Idealize.ShloMosaic Idealize.ShloMosaic.ValueIdx

variable {α : Type}

/-- Row (r, q) of a stack of `a` blocks of `c` rows is row r·c + q of the stack folded into M = a·c rows. -/
def foldRow {a c M : ℕ} (hM : M = a * c) (r : Fin a) (q : Fin c) : Fin M :=
  ⟨r.val * c + q.val, by
    have hr := r.isLt
    have hq := q.isLt
    have : r.val * c + q.val < a * c := by
      calc r.val * c + q.val < r.val * c + c := by omega
        _ = (r.val + 1) * c := by ring
        _ ≤ a * c := Nat.mul_le_mul_right c hr
    omega⟩

@[simp] theorem foldRow_val {a c M : ℕ} (hM : M = a * c) (r : Fin a) (q : Fin c) :
    (foldRow hM r q).val = r.val * c + q.val := rfl

/-- A stack [a, c, b] folded into [M, b], M = a·c, reads at (p, d), with p the folded number of row (r, q), the stack
    at (r, q, d). -/
theorem shapeCast_fold_apply {a c b M : ℕ} (x : (⟨3, ![a, c, b]⟩ : Shape).Idx → α)
    (h : (⟨3, ![a, c, b]⟩ : Shape).ShapeCasts ⟨2, ![M, b]⟩) (r : Fin a) (q : Fin c) (d : Fin b) (p : Fin M)
    (hp : p.val = r.val * c + q.val) :
    shapeCast ⟨2, ![M, b]⟩ x h (ix2 p d) = x (ix3 r q d) :=
  shapeCast_apply x h _ _ (by
    rw [Shape.rowMajor_val_three, Shape.rowMajor_val_two]
    show (r.val * c + q.val) * b + d.val = p.val * b + d.val
    rw [hp])

/-- A matrix [M, n], M = a·c, unfolded into the stack [a, c, n] reads at (r, q, v) the matrix at (p, v), with p the
    folded number of row (r, q). -/
theorem shapeCast_unfold_apply {a c n M : ℕ} (x : (⟨2, ![M, n]⟩ : Shape).Idx → α)
    (h : (⟨2, ![M, n]⟩ : Shape).ShapeCasts ⟨3, ![a, c, n]⟩) (r : Fin a) (q : Fin c) (v : Fin n) (p : Fin M)
    (hp : p.val = r.val * c + q.val) :
    shapeCast ⟨3, ![a, c, n]⟩ x h (ix3 r q v) = x (ix2 p v) :=
  shapeCast_apply x h _ _ (by
    rw [Shape.rowMajor_val_three, Shape.rowMajor_val_two]
    show p.val * n + v.val = (r.val * c + q.val) * n + v.val
    rw [hp])

/-- A block [a, b] given a unit middle axis, [a, 1, b], reads at (r, u, d) the block at (r, d). -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- A block [a, 1, b] broadcast along its unit middle axis to [a, c, b] reads at (r, q, d) the block at (r, 0, d). -/
theorem broadcastTo_a1b_acb_apply {a c b : ℕ} (x : (⟨3, ![a, 1, b]⟩ : Shape).Idx → α)
    (h : (⟨3, ![a, 1, b]⟩ : Shape).Broadcasts ⟨3, ![a, c, b]⟩) (r : Fin a) (q : Fin c) (d : Fin b) :
    broadcastTo ⟨3, ![a, c, b]⟩ x h (ix3 r q d) = x (ix3 r (0 : Fin 1) d) := by
  refine broadcastTo_apply x h (ix3 r q d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- A block [1, c, b] broadcast along its unit leading axis to [a, c, b] reads at (r, q, d) the block at (0, q, d). -/
theorem broadcastTo_1cb_acb_apply {a c b : ℕ} (x : (⟨3, ![1, c, b]⟩ : Shape).Idx → α)
    (h : (⟨3, ![1, c, b]⟩ : Shape).Broadcasts ⟨3, ![a, c, b]⟩) (r : Fin a) (q : Fin c) (d : Fin b) :
    broadcastTo ⟨3, ![a, c, b]⟩ x h (ix3 r q d) = x (ix3 (0 : Fin 1) q d) := by
  refine broadcastTo_apply x h (ix3 r q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

end Cert.Lib.FoldRows

end
-- ==== Proof.Payloads.lean ====
/-
  WHAT EACH KERNEL BODY STORES, as a function of the blocks it loads, at the ideal values.

  The two projection kernels load a block [1, S, 512] of rows, the whole weight matrix [512, 512] and the bias row
  [1, 512], and store the block with the affine map applied to each of its rows: their stored value is
  `affineRows` of the three loaded blocks. (The casts to bf16 are the identity on the extended reals; the matrix
  product into a zero accumulator is the plain sum over the contracted index.)

  The joint kernel loads 24 rows of f, the 100 rows of g of the same batch entry, the weight matrix [512, 1024] and
  the bias row [1, 1024]; it builds the stack [24, 100, 512] of tanh(f-row + g-row), folds it into 2400 rows,
  multiplies, adds the bias row and unfolds: its stored value is `jointRows` of the four loaded blocks, row
  (r, q) of the stack being row r·100 + q of the folded matrix on both sides of the product.
-/
import proofs.«126443_j22960895165074_1_alg».proof.Proof.Gen.KernelIdeal.Skeleton
import proofs.«126443_j22960895165074_1_alg».proof.Proof.Spec
import proofs.«126443_j22960895165074_1_alg».proof.Proof.LibPlainDot
import proofs.«126443_j22960895165074_1_alg».proof.Proof.LibFoldRows
import Idealize.ShloMosaic.Lib.ValueLayout
import Idealize.ShloMosaic.Lib.ValueIdxCoords

noncomputable section

open scoped BigOperators

namespace Cert.KernelIdeal.Blocks

open Idealize.ShloMosaic Idealize.ShloMosaic.ValueIdx Cert.KernelIdeal Cert.KernelIdeal.Gen Cert.Joint Cert.Lib.PlainDot
  Cert.Lib.FoldRows

/-- The first projection kernel's stored block is the affine map of the loaded rows. -/
theorem proj312_payload (x0 : Vec Ideal S1x312x512 .f32) (x1 : Vec Ideal S512x512 .bf16) (x2 : Vec Ideal S1x512 .f32) :
    k0_pay1 (F := Ideal) x0 x1 x2 = affineRows x0 x1 x2 := by
  funext j
  obtain ⟨u, r, d, rfl⟩ : ∃ (u : Fin 1) (r : Fin 312) (d : Fin 512), j = ix3 u r d := ⟨j 0, j 1, j 2, eq_ix3 j⟩
  rw [affineRows_apply]
  unfold k0_pay1
  rw [shapeCast_ab_1ab_apply, addf_apply, eq_plain dot_S312x512_S512x512_S312x512_1_0_0_1_n_n rfl rfl rfl rfl rfl rfl,
    matmul_zero_plain_apply, broadcastTo_1b_ab_apply, shapeCast_self, shapeCast_self]
  simp only [ix2_0, ix2_1]
  congr 1
  refine Finset.sum_congr rfl fun k _ => ?_
  rw [truncf_apply, shapeCast_1ab_ab_apply]
  have hu : u = (0 : Fin 1) := Subsingleton.elim _ _
  rw [hu]

/-- The second projection kernel's stored block is the affine map of the loaded rows. -/
theorem proj100_payload (x0 : Vec Ideal S1x100x512 .f32) (x1 : Vec Ideal S512x512 .bf16) (x2 : Vec Ideal S1x512 .f32) :
    k1_pay1 (F := Ideal) x0 x1 x2 = affineRows x0 x1 x2 := by
  funext j
  obtain ⟨u, r, d, rfl⟩ : ∃ (u : Fin 1) (r : Fin 100) (d : Fin 512), j = ix3 u r d := ⟨j 0, j 1, j 2, eq_ix3 j⟩
  rw [affineRows_apply]
  unfold k1_pay1
  rw [shapeCast_ab_1ab_apply, addf_apply, eq_plain dot_S100x512_S512x512_S100x512_1_0_0_1_n_n rfl rfl rfl rfl rfl rfl,
    matmul_zero_plain_apply, broadcastTo_1b_ab_apply, shapeCast_self, shapeCast_self]
  simp only [ix2_0, ix2_1]
  congr 1
  refine Finset.sum_congr rfl fun k _ => ?_
  rw [truncf_apply, shapeCast_1ab_ab_apply]
  have hu : u = (0 : Fin 1) := Subsingleton.elim _ _
  rw [hu]

/-- The vector unit's tanh, entry by entry, is the extended reals' tanh. -/
theorem tanh_apply {s : Shape} {φ : FTy} (a : FVec Ideal s φ) (i : s.Idx) : tanh a i = Ideal.tanh (a i) := rfl

/-- 2400 rows are 24 blocks of 100. -/
theorem rows_2400 : 2400 = 24 * 100 := by norm_num

/-- The joint kernel's stored block is the joint network of the loaded rows of f and g: entry (r, q, v) sits in row
    r·100 + q of the folded product, whose left operand's row r·100 + q is the stack's row (r, q). -/
theorem joint_payload (x0 : Vec Ideal S1x24x512 .f32) (x1 : Vec Ideal S1x100x512 .f32) (x2 : Vec Ideal S512x1024 .bf16)
    (x3 : Vec Ideal S1x1024 .f32) :
    k2_pay1 (F := Ideal) x0 x1 x2 x3 = jointRows x0 x1 x2 x3 := by
  funext j
  obtain ⟨u, r, q, v, rfl⟩ : ∃ (u : Fin 1) (r : Fin 24) (q : Fin 100) (v : Fin 1024), j = ix4 u r q v :=
    ⟨j 0, j 1, j 2, j 3, eq_ix4 j⟩
  rw [jointRows_apply]
  unfold k2_pay1
  rw [shapeCast_abc_1abc_apply, shapeCast_unfold_apply _ _ r q v (foldRow rows_2400 r q) rfl, addf_apply,
    eq_plain dot_S2400x512_S512x1024_S2400x1024_1_0_0_1_n_n rfl rfl rfl rfl rfl rfl,
    matmul_zero_plain_apply, broadcastTo_1b_ab_apply, shapeCast_self, shapeCast_self]
  simp only [ix2_0, ix2_1]
  congr 1
  refine Finset.sum_congr rfl fun d _ => ?_
  rw [shapeCast_fold_apply _ _ r q d (foldRow rows_2400 r q) rfl, truncf_apply, tanh_apply, addf_apply,
    broadcastTo_a1b_acb_apply, broadcastTo_1cb_acb_apply, shapeCast_ab_a1b_apply, shapeCast_ab_1ab_apply,
    shapeCast_1ab_ab_apply, shapeCast_1ab_ab_apply]
  have hu : u = (0 : Fin 1) := Subsingleton.elim _ _
  rw [hu]

end Cert.KernelIdeal.Blocks

end
-- ==== Proof.Region0.lean ====
/-
  THE FIRST LAUNCH, AS ONE FUNCTION OF ITS ARRAYS. The grid has four points, one per batch entry; point t fetches
  batch entry t of the padded encoder array [4, 312, 512] (a block [1, 312, 512]), the whole weight matrix and the
  bias row, and writes back batch entry t of the result. A block's coordinate along an axis is always
  (block index) · (block extent) + (coordinate inside the block); here the block index is (t, 0, 0) for the rows and
  the result and (0, 0) for the weights and the bias.

  Since an entry of the affine map depends on one row only, batch entry t of the map of the whole array is the map of
  batch entry t; and the four blocks tile the result. So after the launch the result array is `affineRows` of the
  launch's three input arrays, whatever those arrays hold.
-/
import proofs.«126443_j22960895165074_1_alg».proof.Proof.Gen.KernelIdeal.Frame
import proofs.«126443_j22960895165074_1_alg».proof.Proof.Payloads
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.Joint

-- the TensorCore's buffer contents when the launch begins: every statement below holds for any such contents
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: rows and result move together along the batch axis and sit at block 0 of
    the other two axes; weights and bias are always block (0, 0); the batch block index is below 4. -/
theorem idx_facts : ∀ t : Fin cfg0.N,
    win0_0.index t (0 : Fin 3) = win0_3.index t (0 : Fin 3) ∧ win0_0.index t (1 : Fin 3) = 0 ∧ win0_0.index t (2 : Fin 3) = 0
    ∧ win0_3.index t (1 : Fin 3) = 0 ∧ win0_3.index t (2 : Fin 3) = 0 ∧ win0_3.index t (0 : Fin 3) < 4
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every batch entry is some point's block. -/
theorem idx_onto : ∀ q : Fin 4, ∃ t : Fin cfg0.N, win0_3.index t = ![q.val, 0, 0] :=
  (by decide +kernel : ∀ q : Fin 4, ∃ t : Fin grid0.N, win0_3.index t = ![q.val, 0, 0])

/-- The batch entry point `t` works on. -/
def batch (t : Fin cfg0.N) : Fin 4 := ⟨win0_3.index t (0 : Fin 3), (idx_facts t).2.2.2.2.2.1⟩

/-- Point `t`'s block of rows is batch entry `batch t` of the rows array. -/
theorem rows_blk (c : Dev nD) (t : Fin cfg0.N) (u : Fin 1) (r : Fin 312) (k : Fin 512) :
    iblk0 V c 0 t (ix3 u r k) = V c main_v0 (ix3 (batch t) r k) := by
  obtain ⟨e0, e1, e2, e3, e4, e5, e6, e7, e8, e9⟩ := idx_facts t
  show V c main_v0 (((cfg0.win 0).blk t).view.emb (ix3 u r k)) = V c main_v0 (ix3 (batch t) r k)
  refine congrArg (V c main_v0) (funext fun a => Fin.ext ?_)
  have hu : u.val = 0 := by omega
  match a with
  | ⟨0, _⟩ => show win0_0.index t (0 : Fin 3) * 1 + 1 * u.val = win0_3.index t (0 : Fin 3); omega
  | ⟨1, _⟩ => show win0_0.index t (1 : Fin 3) * 312 + 1 * r.val = r.val; omega
  | ⟨2, _⟩ => show win0_0.index t (2 : Fin 3) * 512 + 1 * k.val = k.val; omega

/-- Every point's block of the weight matrix is the whole matrix. -/
theorem weights_blk (c : Dev nD) (t : Fin cfg0.N) (k d : Fin 512) :
    iblk0 V c 1 t (ix2 k d) = V c main_v1 (ix2 k d) := by
  obtain ⟨e0, e1, e2, e3, e4, e5, e6, e7, e8, e9⟩ := idx_facts t
  show V c main_v1 (((cfg0.win 1).blk t).view.emb (ix2 k d)) = V c main_v1 (ix2 k d)
  refine congrArg (V c main_v1) (funext fun a => Fin.ext ?_)
  match a with
  | ⟨0, _⟩ => show win0_1.index t (0 : Fin 2) * 512 + 1 * k.val = k.val; omega
  | ⟨1, _⟩ => show win0_1.index t (1 : Fin 2) * 512 + 1 * d.val = d.val; omega

/-- Every point's block of the bias row is the whole row. -/
theorem bias_blk (c : Dev nD) (t : Fin cfg0.N) (u : Fin 1) (d : Fin 512) :
    iblk0 V c 2 t (ix2 u d) = V c main_v4 (ix2 u d) := by
  obtain ⟨e0, e1, e2, e3, e4, e5, e6, e7, e8, e9⟩ := idx_facts t
  show V c main_v4 (((cfg0.win 2).blk t).view.emb (ix2 u d)) = V c main_v4 (ix2 u d)
  refine congrArg (V c main_v4) (funext fun a => Fin.ext ?_)
  match a with
  | ⟨0, _⟩ => show win0_2.index t (0 : Fin 2) * 1 + 1 * u.val = u.val; omega
  | ⟨1, _⟩ => show win0_2.index t (1 : Fin 2) * 512 + 1 * d.val = d.val; omega

/-- An index inside point `t`'s block of the result is at batch entry `batch t`. -/
theorem out_emb (t : Fin cfg0.N) (u : Fin 1) (r : Fin 312) (d : Fin 512) :
    ((cfg0.win 3).blk t).view.emb (ix3 u r d) = ix3 (batch t) r d := by
  obtain ⟨e0, e1, e2, e3, e4, e5, e6, e7, e8, e9⟩ := idx_facts t
  refine funext fun a => Fin.ext ?_
  have hu : u.val = 0 := by omega
  match a with
  | ⟨0, _⟩ => show win0_3.index t (0 : Fin 3) * 1 + 1 * u.val = win0_3.index t (0 : Fin 3); omega
  | ⟨1, _⟩ => show win0_3.index t (1 : Fin 3) * 312 + 1 * r.val = r.val; omega
  | ⟨2, _⟩ => show win0_3.index t (2 : Fin 3) * 512 + 1 * d.val = d.val; omega

/-- WHAT POINT `t` WRITES BACK is block `t` of the affine map of the launch's input arrays. -/
theorem flushed_eq (c : Dev nD) (t : Fin cfg0.N) :
    (dat0 V c).flushed 3 t
      = ((cfg0.win 3).blk t).view.read (Elt Ideal) (affineRows (V c main_v0) (V c main_v1) (V c main_v4)) := by
  show (cfg0.win 3).cut (grid0.coords t) ((dat0 V c).after 3 t) = _
  rw [after0_3]
  unfold out0_3
  rw [View.canon_unit_zero hz3]
  simp only [View.ld_unit_zero (S := S1x312x512) hz3, View.ld_unit_zero (S := S512x512) hz2, View.ld_unit_zero (S := S1x512) hz2]
  rw [proj312_payload]
  funext j
  obtain ⟨u, r, d, rfl⟩ : ∃ (u : Fin 1) (r : Fin 312) (d : Fin 512), j = ix3 u r d := ⟨j 0, j 1, j 2, eq_ix3 j⟩
  show affineRows (iblk0 V c 0 t) (iblk0 V c 1 t) (iblk0 V c 2 t) (ix3 u r d)
    = affineRows (V c main_v0) (V c main_v1) (V c main_v4) (((cfg0.win 3).blk t).view.emb (ix3 u r d))
  rw [out_emb, affineRows_apply, affineRows_apply, bias_blk]
  congr 1
  exact Finset.sum_congr rfl fun k _ => by rw [rows_blk, weights_blk]

/-- An index of the result array is in point `t`'s block iff each coordinate is in the block's range. -/
theorem mem_blk (t : Fin cfg0.N) (i : S4x312x512.Idx) :
    i ∈ ((cfg0.win 3).blk t).view.set ↔ ∀ a : Fin 3, win0_3.index t a * S1x312x512.size a ≤ (i a).val
      ∧ (i a).val < win0_3.index t a * S1x312x512.size a + S1x312x512.size a := by
  show i ∈ ((View.whole main_v7).slice (win0_3.rect t)).set ↔ _
  rw [View.set_slice_whole, Rect.mem_set_unit]
  exact Iff.rfl

/-- The four blocks tile the result: index i lies in the block of the point working on batch entry i₀. -/
theorem cover (i : S4x312x512.Idx) :
    ∃ t : Fin cfg0.N, (cfg0.win 3).flush t = true ∧ i ∈ ((cfg0.win 3).blk t).view.set := by
  have h0 : (i 0).val < 4 := (i 0).isLt
  have h1 : (i 1).val < 312 := (i 1).isLt
  have h2 : (i 2).val < 512 := (i 2).isLt
  obtain ⟨t, ht⟩ := idx_onto ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 312 ≤ (i 1).val ∧ (i 1).val < win0_3.index t (1 : Fin 3) * 312 + 312; omega
  | ⟨2, _⟩ => show win0_3.index t (2 : Fin 3) * 512 ≤ (i 2).val ∧ (i 2).val < win0_3.index t (2 : Fin 3) * 512 + 512; omega

/-- THE RESULT ARRAY after the launch: the affine map of the launch's rows, weights and bias arrays. -/
theorem final (c : Dev nD) :
    (dat0 V c).arrAt 3 cfg0.N = affineRows (V c main_v0) (V c main_v1) (V c main_v4) :=
  (dat0 V c).arrAt_eq_of_cover 3 _ (fun t _ => flushed_eq V c t) cover

end Cert.KernelIdeal.Region0

end
-- ==== Proof.Region1.lean ====
/-
  THE SECOND LAUNCH, AS ONE FUNCTION OF ITS ARRAYS. As the first, on the predictor array [4, 100, 512]: four grid
  points, point t fetching batch entry t (a block [1, 100, 512]), the whole weight matrix and the bias row, and
  writing back batch entry t of the result. The blocks tile the result and an entry of the affine map depends on one
  row, so the result array ends at `affineRows` of the launch's three input arrays, whatever they hold.
-/
import proofs.«126443_j22960895165074_1_alg».proof.Proof.Gen.KernelIdeal.Frame
import proofs.«126443_j22960895165074_1_alg».proof.Proof.Payloads
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.Joint

-- the TensorCore's buffer contents when the launch begins: every statement below holds for any such contents
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: rows and result move together along the batch axis and sit at block 0 of
    the other two axes; weights and bias are always block (0, 0); the batch block index is below 4. -/
theorem idx_facts : ∀ t : Fin cfg1.N,
    win1_0.index t (0 : Fin 3) = win1_3.index t (0 : Fin 3) ∧ win1_0.index t (1 : Fin 3) = 0 ∧ win1_0.index t (2 : Fin 3) = 0
    ∧ win1_3.index t (1 : Fin 3) = 0 ∧ win1_3.index t (2 : Fin 3) = 0 ∧ win1_3.index t (0 : Fin 3) < 4
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Every batch entry is some point's block. -/
theorem idx_onto : ∀ q : Fin 4, ∃ t : Fin cfg1.N, win1_3.index t = ![q.val, 0, 0] :=
  (by decide +kernel : ∀ q : Fin 4, ∃ t : Fin grid1.N, win1_3.index t = ![q.val, 0, 0])

/-- The batch entry point `t` works on. -/
def batch (t : Fin cfg1.N) : Fin 4 := ⟨win1_3.index t (0 : Fin 3), (idx_facts t).2.2.2.2.2.1⟩

/-- Point `t`'s block of rows is batch entry `batch t` of the rows array. -/
theorem rows_blk (c : Dev nD) (t : Fin cfg1.N) (u : Fin 1) (r : Fin 100) (k : Fin 512) :
    iblk1 V c 0 t (ix3 u r k) = V c main_arg1 (ix3 (batch t) r k) := by
  obtain ⟨e0, e1, e2, e3, e4, e5, e6, e7, e8, e9⟩ := idx_facts t
  show V c main_arg1 (((cfg1.win 0).blk t).view.emb (ix3 u r k)) = V c main_arg1 (ix3 (batch t) r k)
  refine congrArg (V c main_arg1) (funext fun a => Fin.ext ?_)
  have hu : u.val = 0 := by omega
  match a with
  | ⟨0, _⟩ => show win1_0.index t (0 : Fin 3) * 1 + 1 * u.val = win1_3.index t (0 : Fin 3); omega
  | ⟨1, _⟩ => show win1_0.index t (1 : Fin 3) * 100 + 1 * r.val = r.val; omega
  | ⟨2, _⟩ => show win1_0.index t (2 : Fin 3) * 512 + 1 * k.val = k.val; omega

/-- Every point's block of the weight matrix is the whole matrix. -/
theorem weights_blk (c : Dev nD) (t : Fin cfg1.N) (k d : Fin 512) :
    iblk1 V c 1 t (ix2 k d) = V c main_v2 (ix2 k d) := by
  obtain ⟨e0, e1, e2, e3, e4, e5, e6, e7, e8, e9⟩ := idx_facts t
  show V c main_v2 (((cfg1.win 1).blk t).view.emb (ix2 k d)) = V c main_v2 (ix2 k d)
  refine congrArg (V c main_v2) (funext fun a => Fin.ext ?_)
  match a with
  | ⟨0, _⟩ => show win1_1.index t (0 : Fin 2) * 512 + 1 * k.val = k.val; omega
  | ⟨1, _⟩ => show win1_1.index t (1 : Fin 2) * 512 + 1 * d.val = d.val; omega

/-- Every point's block of the bias row is the whole row. -/
theorem bias_blk (c : Dev nD) (t : Fin cfg1.N) (u : Fin 1) (d : Fin 512) :
    iblk1 V c 2 t (ix2 u d) = V c main_v5 (ix2 u d) := by
  obtain ⟨e0, e1, e2, e3, e4, e5, e6, e7, e8, e9⟩ := idx_facts t
  show V c main_v5 (((cfg1.win 2).blk t).view.emb (ix2 u d)) = V c main_v5 (ix2 u d)
  refine congrArg (V c main_v5) (funext fun a => Fin.ext ?_)
  match a with
  | ⟨0, _⟩ => show win1_2.index t (0 : Fin 2) * 1 + 1 * u.val = u.val; omega
  | ⟨1, _⟩ => show win1_2.index t (1 : Fin 2) * 512 + 1 * d.val = d.val; omega

/-- An index inside point `t`'s block of the result is at batch entry `batch t`. -/
theorem out_emb (t : Fin cfg1.N) (u : Fin 1) (r : Fin 100) (d : Fin 512) :
    ((cfg1.win 3).blk t).view.emb (ix3 u r d) = ix3 (batch t) r d := by
  obtain ⟨e0, e1, e2, e3, e4, e5, e6, e7, e8, e9⟩ := idx_facts t
  refine funext fun a => Fin.ext ?_
  have hu : u.val = 0 := by omega
  match a with
  | ⟨0, _⟩ => show win1_3.index t (0 : Fin 3) * 1 + 1 * u.val = win1_3.index t (0 : Fin 3); omega
  | ⟨1, _⟩ => show win1_3.index t (1 : Fin 3) * 100 + 1 * r.val = r.val; omega
  | ⟨2, _⟩ => show win1_3.index t (2 : Fin 3) * 512 + 1 * d.val = d.val; omega

/-- WHAT POINT `t` WRITES BACK is block `t` of the affine map of the launch's input arrays. -/
theorem flushed_eq (c : Dev nD) (t : Fin cfg1.N) :
    (dat1 V c).flushed 3 t
      = ((cfg1.win 3).blk t).view.read (Elt Ideal) (affineRows (V c main_arg1) (V c main_v2) (V c main_v5)) := by
  show (cfg1.win 3).cut (grid1.coords t) ((dat1 V c).after 3 t) = _
  rw [after1_3]
  unfold out1_3
  rw [View.canon_unit_zero hz3]
  simp only [View.ld_unit_zero (S := S1x100x512) hz3, View.ld_unit_zero (S := S512x512) hz2, View.ld_unit_zero (S := S1x512) hz2]
  rw [proj100_payload]
  funext j
  obtain ⟨u, r, d, rfl⟩ : ∃ (u : Fin 1) (r : Fin 100) (d : Fin 512), j = ix3 u r d := ⟨j 0, j 1, j 2, eq_ix3 j⟩
  show affineRows (iblk1 V c 0 t) (iblk1 V c 1 t) (iblk1 V c 2 t) (ix3 u r d)
    = affineRows (V c main_arg1) (V c main_v2) (V c main_v5) (((cfg1.win 3).blk t).view.emb (ix3 u r d))
  rw [out_emb, affineRows_apply, affineRows_apply, bias_blk]
  congr 1
  exact Finset.sum_congr rfl fun k _ => by rw [rows_blk, weights_blk]

/-- An index of the result array is in point `t`'s block iff each coordinate is in the block's range. -/
theorem mem_blk (t : Fin cfg1.N) (i : S4x100x512.Idx) :
    i ∈ ((cfg1.win 3).blk t).view.set ↔ ∀ a : Fin 3, win1_3.index t a * S1x100x512.size a ≤ (i a).val
      ∧ (i a).val < win1_3.index t a * S1x100x512.size a + S1x100x512.size a := by
  show i ∈ ((View.whole main_v8).slice (win1_3.rect t)).set ↔ _
  rw [View.set_slice_whole, Rect.mem_set_unit]
  exact Iff.rfl

/-- The four blocks tile the result: index i lies in the block of the point working on batch entry i₀. -/
theorem cover (i : S4x100x512.Idx) :
    ∃ t : Fin cfg1.N, (cfg1.win 3).flush t = true ∧ i ∈ ((cfg1.win 3).blk t).view.set := by
  have h0 : (i 0).val < 4 := (i 0).isLt
  have h1 : (i 1).val < 100 := (i 1).isLt
  have h2 : (i 2).val < 512 := (i 2).isLt
  obtain ⟨t, ht⟩ := idx_onto ⟨(i 0).val, h0⟩
  have q0 : win1_3.index t (0 : Fin 3) = (i 0).val := congrFun ht 0
  have q1 : win1_3.index t (1 : Fin 3) = 0 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 100 ≤ (i 1).val ∧ (i 1).val < win1_3.index t (1 : Fin 3) * 100 + 100; omega
  | ⟨2, _⟩ => show win1_3.index t (2 : Fin 3) * 512 ≤ (i 2).val ∧ (i 2).val < win1_3.index t (2 : Fin 3) * 512 + 512; omega

/-- THE RESULT ARRAY after the launch: the affine map of the launch's rows, weights and bias arrays. -/
theorem final (c : Dev nD) :
    (dat1 V c).arrAt 3 cfg1.N = affineRows (V c main_arg1) (V c main_v2) (V c main_v5) :=
  (dat1 V c).arrAt_eq_of_cover 3 _ (fun t _ => flushed_eq V c t) cover

end Cert.KernelIdeal.Region1

end
-- ==== Proof.Region2.lean ====
/-
  THE THIRD LAUNCH, AS ONE FUNCTION OF ITS ARRAYS. The grid is 4 × 13: point (b, s) fetches rows 24·s … 24·s + 23 of
  batch entry b of f (a block [1, 24, 512] of the array [4, 312, 512]), all 100 rows of batch entry b of g (a block
  [1, 100, 512]), the whole weight matrix [512, 1024] and the bias row [1, 1024], and writes back the block
  [1, 24, 100, 1024] at (b, s, 0, 0) of the result [4, 312, 100, 1024]. A block's coordinate along an axis is
  (block index) · (block extent) + (coordinate inside the block): row r of the f-block is row 24·s + r of the array.

  An entry (b, t, u, v) of the joint network depends on row (b, t) of f and row (b, u) of g only, so the block at
  (b, s) of the network of the whole arrays is the network of the fetched blocks; and the 52 blocks tile the result
  (the point for index i is (i₀, i₁ / 24)). So after the launch the result array is `jointRows` of the launch's four
  input arrays, whatever those arrays hold.
-/
import proofs.«126443_j22960895165074_1_alg».proof.Proof.Gen.KernelIdeal.Frame
import proofs.«126443_j22960895165074_1_alg».proof.Proof.Payloads
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.Joint

-- the TensorCore's buffer contents when the launch begins: every statement below holds for any such contents
variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the f-block moves with the result along the batch axis and the row-tile
    axis; the g-block moves with it along the batch axis only; weights and bias are always block (0, 0); the
    result's block indices on its last two axes are 0, its batch index is below 4 and its tile index below 13. -/
theorem idx_facts : ∀ t : Fin cfg2.N,
    win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (2 : Fin 4) = 0 ∧ win2_4.index t (3 : Fin 4) = 0
    ∧ win2_4.index t (0 : Fin 4) < 4 ∧ win2_4.index t (1 : Fin 4) < 13 :=
  (by decide +kernel : ∀ t : Fin grid2.N, _)

/-- Every (batch entry, row tile) is some point's block. -/
theorem idx_onto : ∀ (q0 : Fin 4) (q1 : Fin 13), ∃ t : Fin cfg2.N, win2_4.index t = ![q0.val, q1.val, 0, 0] :=
  (by decide +kernel : ∀ (q0 : Fin 4) (q1 : Fin 13), ∃ t : Fin grid2.N, win2_4.index t = ![q0.val, q1.val, 0, 0])

/-- The batch entry point `t` works on. -/
def batch (t : Fin cfg2.N) : Fin 4 := ⟨win2_4.index t (0 : Fin 4), (idx_facts t).2.2.2.2.2.2.2.2.2.2.2.2.1⟩

/-- Row `r` of point `t`'s tile of 24 rows, as a row of the 312. -/
def row (t : Fin cfg2.N) (r : Fin 24) : Fin 312 :=
  ⟨win2_4.index t (1 : Fin 4) * 24 + r.val, by
    have h := (idx_facts t).2.2.2.2.2.2.2.2.2.2.2.2.2
    have hr := r.isLt
    omega⟩

/-- Point `t`'s block of f is rows `row t ·` of batch entry `batch t`. -/
theorem f_blk (c : Dev nD) (t : Fin cfg2.N) (u : Fin 1) (r : Fin 24) (d : Fin 512) :
    iblk2 V c 0 t (ix3 u r d) = V c main_v7 (ix3 (batch t) (row t r) d) := by
  obtain ⟨e0, e1, e2, e3, e4, e5, e6, e7, e8, e9, e10, e11, e12, e13⟩ := idx_facts t
  show V c main_v7 (((cfg2.win 0).blk t).view.emb (ix3 u r d)) = V c main_v7 (ix3 (batch t) (row t r) d)
  refine congrArg (V c main_v7) (funext fun a => Fin.ext ?_)
  have hu : u.val = 0 := by omega
  match a with
  | ⟨0, _⟩ => show win2_0.index t (0 : Fin 3) * 1 + 1 * u.val = win2_4.index t (0 : Fin 4); omega
  | ⟨1, _⟩ => show win2_0.index t (1 : Fin 3) * 24 + 1 * r.val = win2_4.index t (1 : Fin 4) * 24 + r.val; omega
  | ⟨2, _⟩ => show win2_0.index t (2 : Fin 3) * 512 + 1 * d.val = d.val; omega

/-- Point `t`'s block of g is batch entry `batch t`. -/
theorem g_blk (c : Dev nD) (t : Fin cfg2.N) (u : Fin 1) (q : Fin 100) (d : Fin 512) :
    iblk2 V c 1 t (ix3 u q d) = V c main_v8 (ix3 (batch t) q d) := by
  obtain ⟨e0, e1, e2, e3, e4, e5, e6, e7, e8, e9, e10, e11, e12, e13⟩ := idx_facts t
  show V c main_v8 (((cfg2.win 1).blk t).view.emb (ix3 u q d)) = V c main_v8 (ix3 (batch t) q d)
  refine congrArg (V c main_v8) (funext fun a => Fin.ext ?_)
  have hu : u.val = 0 := by omega
  match a with
  | ⟨0, _⟩ => show win2_1.index t (0 : Fin 3) * 1 + 1 * u.val = win2_4.index t (0 : Fin 4); omega
  | ⟨1, _⟩ => show win2_1.index t (1 : Fin 3) * 100 + 1 * q.val = q.val; omega
  | ⟨2, _⟩ => show win2_1.index t (2 : Fin 3) * 512 + 1 * d.val = d.val; omega

/-- Every point's block of the weight matrix is the whole matrix. -/
theorem weights_blk (c : Dev nD) (t : Fin cfg2.N) (d : Fin 512) (v : Fin 1024) :
    iblk2 V c 2 t (ix2 d v) = V c main_v3 (ix2 d v) := by
  obtain ⟨e0, e1, e2, e3, e4, e5, e6, e7, e8, e9, e10, e11, e12, e13⟩ := idx_facts t
  show V c main_v3 (((cfg2.win 2).blk t).view.emb (ix2 d v)) = V c main_v3 (ix2 d v)
  refine congrArg (V c main_v3) (funext fun a => Fin.ext ?_)
  match a with
  | ⟨0, _⟩ => show win2_2.index t (0 : Fin 2) * 512 + 1 * d.val = d.val; omega
  | ⟨1, _⟩ => show win2_2.index t (1 : Fin 2) * 1024 + 1 * v.val = v.val; omega

/-- Every point's block of the bias row is the whole row. -/
theorem bias_blk (c : Dev nD) (t : Fin cfg2.N) (u : Fin 1) (v : Fin 1024) :
    iblk2 V c 3 t (ix2 u v) = V c main_v6 (ix2 u v) := by
  obtain ⟨e0, e1, e2, e3, e4, e5, e6, e7, e8, e9, e10, e11, e12, e13⟩ := idx_facts t
  show V c main_v6 (((cfg2.win 3).blk t).view.emb (ix2 u v)) = V c main_v6 (ix2 u v)
  refine congrArg (V c main_v6) (funext fun a => Fin.ext ?_)
  match a with
  | ⟨0, _⟩ => show win2_3.index t (0 : Fin 2) * 1 + 1 * u.val = u.val; omega
  | ⟨1, _⟩ => show win2_3.index t (1 : Fin 2) * 1024 + 1 * v.val = v.val; omega

/-- An index inside point `t`'s block of the result is at batch entry `batch t`, row `row t r`. -/
theorem out_emb (t : Fin cfg2.N) (u : Fin 1) (r : Fin 24) (q : Fin 100) (v : Fin 1024) :
    ((cfg2.win 4).blk t).view.emb (ix4 u r q v) = ix4 (batch t) (row t r) q v := by
  obtain ⟨e0, e1, e2, e3, e4, e5, e6, e7, e8, e9, e10, e11, e12, e13⟩ := idx_facts t
  refine funext fun a => Fin.ext ?_
  have hu : u.val = 0 := by omega
  match a with
  | ⟨0, _⟩ => show win2_4.index t (0 : Fin 4) * 1 + 1 * u.val = win2_4.index t (0 : Fin 4); omega
  | ⟨1, _⟩ => show win2_4.index t (1 : Fin 4) * 24 + 1 * r.val = win2_4.index t (1 : Fin 4) * 24 + r.val; omega
  | ⟨2, _⟩ => show win2_4.index t (2 : Fin 4) * 100 + 1 * q.val = q.val; omega
  | ⟨3, _⟩ => show win2_4.index t (3 : Fin 4) * 1024 + 1 * v.val = v.val; omega

/-- WHAT POINT `t` WRITES BACK is block `t` of the joint network of the launch's input arrays. -/
theorem flushed_eq (c : Dev nD) (t : Fin cfg2.N) :
    (dat2 V c).flushed 4 t
      = ((cfg2.win 4).blk t).view.read (Elt Ideal)
          (jointRows (V c main_v7) (V c main_v8) (V c main_v3) (V c main_v6)) := by
  show (cfg2.win 4).cut (grid2.coords t) ((dat2 V c).after 4 t) = _
  rw [after2_4]
  unfold out2_4
  rw [View.canon_unit_zero hz4]
  simp only [View.ld_unit_zero (S := S1x24x512) hz3, View.ld_unit_zero (S := S1x100x512) hz3,
    View.ld_unit_zero (S := S512x1024) hz2, View.ld_unit_zero (S := S1x1024) hz2]
  rw [joint_payload]
  funext j
  obtain ⟨u, r, q, v, rfl⟩ : ∃ (u : Fin 1) (r : Fin 24) (q : Fin 100) (v : Fin 1024), j = ix4 u r q v :=
    ⟨j 0, j 1, j 2, j 3, eq_ix4 j⟩
  show jointRows (iblk2 V c 0 t) (iblk2 V c 1 t) (iblk2 V c 2 t) (iblk2 V c 3 t) (ix4 u r q v)
    = jointRows (V c main_v7) (V c main_v8) (V c main_v3) (V c main_v6) (((cfg2.win 4).blk t).view.emb (ix4 u r q v))
  rw [out_emb, jointRows_apply, jointRows_apply, bias_blk]
  congr 1
  exact Finset.sum_congr rfl fun d _ => by rw [f_blk, g_blk, weights_blk]

/-- An index of the result array is in point `t`'s block iff each coordinate is in the block's range. -/
theorem mem_blk (t : Fin cfg2.N) (i : S4x312x100x1024.Idx) :
    i ∈ ((cfg2.win 4).blk t).view.set ↔ ∀ a : Fin 4, win2_4.index t a * S1x24x100x1024.size a ≤ (i a).val
      ∧ (i a).val < win2_4.index t a * S1x24x100x1024.size a + S1x24x100x1024.size a := by
  show i ∈ ((View.whole main_v9).slice (win2_4.rect t)).set ↔ _
  rw [View.set_slice_whole, Rect.mem_set_unit]
  exact Iff.rfl

/-- The 52 blocks tile the result: index i lies in the block of the point working on batch entry i₀, row tile i₁ / 24. -/
theorem cover (i : S4x312x100x1024.Idx) :
    ∃ t : Fin cfg2.N, (cfg2.win 4).flush t = true ∧ i ∈ ((cfg2.win 4).blk t).view.set := by
  have h0 : (i 0).val < 4 := (i 0).isLt
  have h1 : (i 1).val < 312 := (i 1).isLt
  have h2 : (i 2).val < 100 := (i 2).isLt
  have h3 : (i 3).val < 1024 := (i 3).isLt
  obtain ⟨t, ht⟩ := idx_onto ⟨(i 0).val, h0⟩ ⟨(i 1).val / 24, by omega⟩
  have q0 : win2_4.index t (0 : Fin 4) = (i 0).val := congrFun ht 0
  have q1 : win2_4.index t (1 : Fin 4) = (i 1).val / 24 := congrFun ht 1
  have q2 : win2_4.index t (2 : Fin 4) = 0 := congrFun ht 2
  have q3 : win2_4.index t (3 : Fin 4) = 0 := congrFun ht 3
  refine ⟨t, flush2_4 t, ?_⟩
  rw [mem_blk]
  intro a
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 24 ≤ (i 1).val ∧ (i 1).val < win2_4.index t (1 : Fin 4) * 24 + 24; omega
  | ⟨2, _⟩ => show win2_4.index t (2 : Fin 4) * 100 ≤ (i 2).val ∧ (i 2).val < win2_4.index t (2 : Fin 4) * 100 + 100; omega
  | ⟨3, _⟩ => show win2_4.index t (3 : Fin 4) * 1024 ≤ (i 3).val ∧ (i 3).val < win2_4.index t (3 : Fin 4) * 1024 + 1024; omega

/-- THE RESULT ARRAY after the launch: the joint network of the launch's f, g, weights and bias arrays. -/
theorem final (c : Dev nD) :
    (dat2 V c).arrAt 4 cfg2.N = jointRows (V c main_v7) (V c main_v8) (V c main_v3) (V c main_v6) :=
  (dat2 V c).arrAt_eq_of_cover 4 _ (fun t _ => flushed_eq V c t) cover

end Cert.KernelIdeal.Region2

end
-- ==== Proof.Network.lean ====
/-
  THE WHOLE FUNCTION of the eight argument arrays, index by index; no program is imported here.

      f = affineRows(enc, W_enc, b_enc)          [B, T, D]
      g = affineRows(pred, W_pred, b_pred)       [B, U, D]
      out(b, t, u, v) = Σ_d tanh(f(b, t, d) + g(b, u, d)) · W_joint(d, v) + b_joint(v)

  A bias vector [D] enters an affine map as the one row [1, D] it is (`rowOf`).
-/
import proofs.«126443_j22960895165074_1_alg».proof.Proof.Spec

noncomputable section

open scoped BigOperators

namespace Cert.Joint

open Idealize.ShloMosaic Idealize.ShloMosaic.ValueIdx

/-- A vector [D] as the one row [1, D]. -/
def rowOf {D : ℕ} (β : (⟨1, ![D]⟩ : Shape).Idx → EReal) : (⟨2, ![1, D]⟩ : Shape).Idx → EReal := fun i => β (ix1 (i 1))

theorem rowOf_apply {D : ℕ} (β : (⟨1, ![D]⟩ : Shape).Idx → EReal) (u : Fin 1) (d : Fin D) : rowOf β (ix2 u d) = β (ix1 d) := rfl

/-- The joint network of the encoder rows and the predictor rows, each first mapped affinely. -/
def network {B T U E P D V : ℕ} (enc : (⟨3, ![B, T, E]⟩ : Shape).Idx → EReal) (pred : (⟨3, ![B, U, P]⟩ : Shape).Idx → EReal)
    (wEnc : (⟨2, ![E, D]⟩ : Shape).Idx → EReal) (bEnc : (⟨1, ![D]⟩ : Shape).Idx → EReal)
    (wPred : (⟨2, ![P, D]⟩ : Shape).Idx → EReal) (bPred : (⟨1, ![D]⟩ : Shape).Idx → EReal)
    (wJoint : (⟨2, ![D, V]⟩ : Shape).Idx → EReal) (bJoint : (⟨1, ![V]⟩ : Shape).Idx → EReal) :
    (⟨4, ![B, T, U, V]⟩ : Shape).Idx → EReal :=
  jointRows (affineRows enc wEnc (rowOf bEnc)) (affineRows pred wPred (rowOf bPred)) wJoint (rowOf bJoint)

theorem network_apply {B T U E P D V : ℕ} (enc : (⟨3, ![B, T, E]⟩ : Shape).Idx → EReal) (pred : (⟨3, ![B, U, P]⟩ : Shape).Idx → EReal)
    (wEnc : (⟨2, ![E, D]⟩ : Shape).Idx → EReal) (bEnc : (⟨1, ![D]⟩ : Shape).Idx → EReal)
    (wPred : (⟨2, ![P, D]⟩ : Shape).Idx → EReal) (bPred : (⟨1, ![D]⟩ : Shape).Idx → EReal)
    (wJoint : (⟨2, ![D, V]⟩ : Shape).Idx → EReal) (bJoint : (⟨1, ![V]⟩ : Shape).Idx → EReal)
    (b : Fin B) (t : Fin T) (u : Fin U) (v : Fin V) :
    network enc pred wEnc bEnc wPred bPred wJoint bJoint (ix4 b t u v)
      = (∑ d : Fin D, Ideal.tanh (((∑ k : Fin E, enc (ix3 b t k) * wEnc (ix2 k d)) + bEnc (ix1 d))
            + ((∑ k : Fin P, pred (ix3 b u k) * wPred (ix2 k d)) + bPred (ix1 d))) * wJoint (ix2 d v))
          + bJoint (ix1 v) := rfl

end Cert.Joint

end
-- ==== Proof.PadSlice.lean ====
/-
  PADDING THE ROWS AND SLICING THEM OFF AGAIN CHANGES NOTHING; no program is imported here.

  A kernel whose row tile does not divide the number T of encoder rows pads the rows to T' (zero rows after the last),
  computes the whole network on T' rows and cuts the result back to the first T rows. Entry (b, t, u, v) of the
  network depends on row (b, t) of the encoder array only, and for t < T that row of the padded array is the
  original row: so the cut-back result is the network of the unpadded array. What the padding rows hold — and so
  what the network makes of them — is never read. The bias vectors enter as the one-row matrices they are recast to.
-/
import proofs.«126443_j22960895165074_1_alg».proof.Proof.Network
import Idealize.ShloMosaic.Lib.ValueLayout
import Idealize.ShloMosaic.Lib.KernelVsHost

noncomputable section

open scoped BigOperators

namespace Cert.Joint

open Idealize.ShloMosaic Idealize.ShloMosaic.ValueIdx

/-- Rows appended after the last (no padding in front, none between, none on the other axes): row t < T of the padded
    array is row t of the array. -/
theorem pad_rows_apply {α : Type} {B T T' K : ℕ} (x : (⟨3, ![B, T, K]⟩ : Shape).Idx → α) {s : Shape} (pv : s.Idx → α)
    (hi : Fin 3 → ℕ) (h : (⟨3, ![B, T, K]⟩ : Shape).Pads ![0, 0, 0] hi ![0, 0, 0] ⟨3, ![B, T', K]⟩) (hs : 0 < s.numel)
    (b : Fin B) (t : Fin T) (t' : Fin T') (ht : t'.val = t.val) (k : Fin K) :
    pad ⟨3, ![B, T', K]⟩ ![0, 0, 0] hi ![0, 0, 0] x pv h hs (ix3 b t' k) = x (ix3 b t k) :=
  pad_apply_of_inside _ _ _ x pv h hs (ix3 b t' k) (ix3 b t k) (fun a => by
    match a with
    | ⟨0, _⟩ => show b.val = 0 + b.val * (0 + 1); omega
    | ⟨1, _⟩ => show t'.val = 0 + t.val * (0 + 1); omega
    | ⟨2, _⟩ => show k.val = 0 + k.val * (0 + 1); omega)

/-- The network over rows padded to T', cut back to the first T rows, is the network. -/
theorem slice_network_padded {B T T' U E P D V : ℕ} (hT : T ≤ T')
    (enc : (⟨3, ![B, T, E]⟩ : Shape).Idx → EReal) (pred : (⟨3, ![B, U, P]⟩ : Shape).Idx → EReal)
    (wEnc : (⟨2, ![E, D]⟩ : Shape).Idx → EReal) (bEnc : (⟨1, ![D]⟩ : Shape).Idx → EReal)
    (wPred : (⟨2, ![P, D]⟩ : Shape).Idx → EReal) (bPred : (⟨1, ![D]⟩ : Shape).Idx → EReal)
    (wJoint : (⟨2, ![D, V]⟩ : Shape).Idx → EReal) (bJoint : (⟨1, ![V]⟩ : Shape).Idx → EReal)
    {s : Shape} (pv : s.Idx → EReal) (hi : Fin 3 → ℕ)
    (hp : (⟨3, ![B, T, E]⟩ : Shape).Pads ![0, 0, 0] hi ![0, 0, 0] ⟨3, ![B, T', E]⟩) (hs : 0 < s.numel)
    (hcut : (⟨4, ![B, T', U, V]⟩ : Shape).Slices ![0, 0, 0, 0] ⟨4, ![B, T, U, V]⟩)
    (hD : (⟨1, ![D]⟩ : Shape).ShapeCasts ⟨2, ![1, D]⟩) (hV : (⟨1, ![V]⟩ : Shape).ShapeCasts ⟨2, ![1, V]⟩) :
    extractStridedSlice ⟨4, ![B, T, U, V]⟩ ![0, 0, 0, 0]
        (jointRows (affineRows (pad ⟨3, ![B, T', E]⟩ ![0, 0, 0] hi ![0, 0, 0] enc pv hp hs) wEnc (shapeCast ⟨2, ![1, D]⟩ bEnc hD))
          (affineRows pred wPred (shapeCast ⟨2, ![1, D]⟩ bPred hD)) wJoint (shapeCast ⟨2, ![1, V]⟩ bJoint hV)) hcut
      = network enc pred wEnc bEnc wPred bPred wJoint bJoint := by
  funext i
  obtain ⟨b, t, u, v, rfl⟩ : ∃ (b : Fin B) (t : Fin T) (u : Fin U) (v : Fin V), i = ix4 b t u v :=
    ⟨i 0, i 1, i 2, i 3, eq_ix4 i⟩
  have ht' : t.val < T' := lt_of_lt_of_le t.isLt hT
  rw [slice4_axis1_apply 0 _ hcut b t u v ⟨t.val, ht'⟩ (by simp), jointRows_apply, network_apply, shapeCast_a_1a_apply]
  simp only [affineRows_apply, shapeCast_a_1a_apply, pad_rows_apply enc pv hi hp hs b t ⟨t.val, ht'⟩ rfl]

end Cert.Joint

end
-- ==== Proof.KernelValue.lean ====
/-
  WHAT THE IDEALIZED KERNEL'S PROGRAM LEAVES IN ITS RESULT BUFFER: the network of the eight arguments.

  Reading the program's segments backwards from the result:
    * the closing host operation cuts the third launch's result [4, 312, 100, 1024] back to its first 300 rows;
    * the third launch leaves `jointRows` of f, g, the joint weights and the joint bias row as it finds them;
    * f is the first launch's result, which the second launch does not touch: `affineRows` of the padded encoder
      array, the encoder weights and the encoder bias row; g is the second launch's result: `affineRows` of the
      predictor array, the predictor weights and the predictor bias row;
    * before the launches the host pads the encoder array with twelve zero rows per batch entry, casts the three
      weight matrices to bf16 (the identity on the extended reals) and recasts each bias vector as a one-row
      matrix; no launch writes any of these.
  Padding and cutting back cancel (the padding rows are never read by a kept entry), which leaves the network.
-/
import proofs.«126443_j22960895165074_1_alg».proof.Proof.Gen.KernelIdeal.Frame
import proofs.«126443_j22960895165074_1_alg».proof.Proof.Region0
import proofs.«126443_j22960895165074_1_alg».proof.Proof.Region1
import proofs.«126443_j22960895165074_1_alg».proof.Proof.Region2
import proofs.«126443_j22960895165074_1_alg».proof.Proof.PadSlice
import Idealize.ShloMosaic.Lib.StableHlo.Run

set_option maxRecDepth 16384

noncomputable section

open scoped BigOperators

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.Joint

variable (m : (ℓ : Loc nD τ sig) → Buf (Elt Ideal) ℓ) (ρ : Dev nD → PrngReg)

/-! ## The arrays as the first launch finds them -/

/-- The encoder array, twelve rows of the padding value appended to each batch entry. -/
theorem entry_enc (c : Dev nD) :
    W3 m ρ c (Proc.devRef .tc main_v0)
      = pad S4x312x512 ![0, 0, 0] ![0, 12, 0] ![0, 0, 0] (m ((c : Thread nD τ).loc main_arg0))
          (sitofp (F := Ideal) .f32 (constantI S_ 32 0#32)) pads_S4x300x512_S4x312x512_000_0120_000 h_S_ := by
  dsimp only [W3, W2, W1, W0]
  after_results
  rfl

/-- The predictor array is an argument: as launched. -/
theorem entry_pred (c : Dev nD) : W3 m ρ c (Proc.devRef .tc main_arg1) = m ((c : Thread nD τ).loc main_arg1) := by
  dsimp only [W3, W2, W1, W0]
  after_results

/-- The encoder weights, cast to bf16: on the extended reals, themselves. -/
theorem entry_wEnc (c : Dev nD) :
    (W3 m ρ c (Proc.devRef .tc main_v1) : S512x512.Idx → EReal) = m ((c : Thread nD τ).loc main_arg2) := by
  dsimp only [W3, W2, W1, W0]
  after_results
  rfl

/-- The predictor weights, cast to bf16: themselves. -/
theorem entry_wPred (c : Dev nD) :
    (W3 m ρ c (Proc.devRef .tc main_v2) : S512x512.Idx → EReal) = m ((c : Thread nD τ).loc main_arg4) := by
  dsimp only [W3, W2, W1, W0]
  after_results
  rfl

/-- The joint weights, cast to bf16: themselves. -/
theorem entry_wJoint (c : Dev nD) :
    (W3 m ρ c (Proc.devRef .tc main_v3) : S512x1024.Idx → EReal) = m ((c : Thread nD τ).loc main_arg6) := by
  dsimp only [W3, W2, W1, W0]
  after_results
  rfl

/-- The encoder bias as a one-row matrix. -/
theorem entry_bEnc (c : Dev nD) :
    W3 m ρ c (Proc.devRef .tc main_v4) = shapeCast S1x512 (m ((c : Thread nD τ).loc main_arg3)) shapeCasts_S512_S1x512 := by
  dsimp only [W3, W2, W1, W0]
  after_results
  rfl

/-- The predictor bias as a one-row matrix. -/
theorem entry_bPred (c : Dev nD) :
    W3 m ρ c (Proc.devRef .tc main_v5) = shapeCast S1x512 (m ((c : Thread nD τ).loc main_arg5)) shapeCasts_S512_S1x512 := by
  dsimp only [W3, W2, W1, W0]
  after_results
  rfl

/-- The joint bias as a one-row matrix. -/
theorem entry_bJoint (c : Dev nD) :
    W3 m ρ c (Proc.devRef .tc main_v6) = shapeCast S1x1024 (m ((c : Thread nD τ).loc main_arg7)) shapeCasts_S1024_S1x1024 := by
  dsimp only [W3, W2, W1, W0]
  after_results
  rfl

/-! ## The launches -/

/-- f, as the third launch finds it: the first launch's result, which the second leaves alone. -/
theorem f_eq (c : Dev nD) :
    W5 m ρ c (Proc.devRef .tc main_v7)
      = affineRows (W3 m ρ c (Proc.devRef .tc main_v0)) (W3 m ρ c (Proc.devRef .tc main_v1)) (W3 m ρ c (Proc.devRef .tc main_v4)) :=
  calc W5 m ρ c (Proc.devRef .tc main_v7)
      = W4 m ρ c (Proc.devRef .tc main_v7) := W5_of_ne m ρ c main_v7 (by decide)
    _ = (dat0 (V3 m ρ) c).arrAt 3 cfg0.N := W4_arr m ρ c 3
    _ = _ := Region0.final (V3 m ρ) c

/-- g, as the third launch finds it: the second launch's result, of arrays the first launch leaves alone. -/
theorem g_eq (c : Dev nD) :
    W5 m ρ c (Proc.devRef .tc main_v8)
      = affineRows (W3 m ρ c (Proc.devRef .tc main_arg1)) (W3 m ρ c (Proc.devRef .tc main_v2)) (W3 m ρ c (Proc.devRef .tc main_v5)) :=
  calc W5 m ρ c (Proc.devRef .tc main_v8)
      = (dat1 (V4 m ρ) c).arrAt 3 cfg1.N := W5_arr m ρ c 3
    _ = affineRows (W4 m ρ c (Proc.devRef .tc main_arg1)) (W4 m ρ c (Proc.devRef .tc main_v2)) (W4 m ρ c (Proc.devRef .tc main_v5)) :=
        Region1.final (V4 m ρ) c
    _ = _ := by
        rw [W4_of_ne m ρ c main_arg1 (by decide), W4_of_ne m ρ c main_v2 (by decide), W4_of_ne m ρ c main_v5 (by decide)]

/-- The third launch's result: the joint network of f, g and the joint weights and bias row, which neither earlier
    launch touches. -/
theorem out_eq (c : Dev nD) :
    W6 m ρ c (Proc.devRef .tc main_v9)
      = jointRows (W5 m ρ c (Proc.devRef .tc main_v7)) (W5 m ρ c (Proc.devRef .tc main_v8))
          (W3 m ρ c (Proc.devRef .tc main_v3)) (W3 m ρ c (Proc.devRef .tc main_v6)) :=
  calc W6 m ρ c (Proc.devRef .tc main_v9)
      = (dat2 (V5 m ρ) c).arrAt 4 cfg2.N := W6_arr m ρ c 4
    _ = jointRows (W5 m ρ c (Proc.devRef .tc main_v7)) (W5 m ρ c (Proc.devRef .tc main_v8))
          (W5 m ρ c (Proc.devRef .tc main_v3)) (W5 m ρ c (Proc.devRef .tc main_v6)) := Region2.final (V5 m ρ) c
    _ = _ := by
        rw [W5_of_ne m ρ c main_v3 (by decide), W4_of_ne m ρ c main_v3 (by decide),
          W5_of_ne m ρ c main_v6 (by decide), W4_of_ne m ρ c main_v6 (by decide)]

/-! ## The result -/

/-- The closing host operation keeps the first 300 rows of the third launch's result. -/
theorem cut_eq (c : Dev nD) :
    W7 m ρ c (Proc.devRef .tc main_v10)
      = extractStridedSlice S4x300x100x1024 ![0, 0, 0, 0] (W6 m ρ c (Proc.devRef .tc main_v9))
          slices_S4x312x100x1024_S4x300x100x1024_0_0_0_0 := by
  dsimp only [W7]
  after_results

/-- THE RESULT BUFFER after the run holds the network of the eight arguments as launched. -/
theorem result_eq (c : Dev nD) :
    W7 m ρ c (Proc.devRef .tc main_v10)
      = network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [cut_eq, out_eq, f_eq, g_eq, entry_enc, entry_pred, entry_wEnc, entry_wPred, entry_wJoint, entry_bEnc, entry_bPred,
    entry_bJoint]
  exact slice_network_padded (by decide) _ _ _ _ _ _ _ _ _ _ _ _ _ _ _

end Cert.KernelIdeal.Result

end
-- ==== Proof.RefValue.lean ====
/-
  THE REFERENCE COMPUTES THE NETWORK. Its eighteen host operations, read one at a time at an index (b, t, u, v): the
  closing sum adds the bias b_joint(v), broadcast from [1024]; the last product contracts d in
  tanh(…)(b, t, u, d) · W_joint(d, v); the tanh's argument at (b, t, u, d) is f(b, t, d), broadcast along u, plus
  g(b, u, d), broadcast along t; and f and g are the two first products contracted over k, plus their biases
  broadcast from [512]. That is `network` of the eight arguments, term for term.
-/
import proofs.«126443_j22960895165074_1_alg».proof.Proof.Gen.ReferenceIdeal.Read
import proofs.«126443_j22960895165074_1_alg».proof.Proof.Network

noncomputable section

open scoped BigOperators

namespace Cert.ReferenceIdeal.RefValue

open Idealize.ShloMosaic Idealize.ShloMosaic.ValueIdx Cert.ReferenceIdeal Cert.ReferenceIdeal.Read Cert.Joint

/-- The reference's last stage is the network of its arguments. -/
theorem ref_eq (x0 : (⟨S4x300x512, .f32⟩ : BufTy).Contents (Elt Ideal)) (x1 : (⟨S4x100x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x1024, .f32⟩ : BufTy).Contents (Elt Ideal)) (x7 : (⟨S1024, .f32⟩ : BufTy).Contents (Elt Ideal)) :
    val_main_v17 (F := Ideal) x0 x1 x2 x3 x4 x5 x6 x7 = network x0 x1 x2 x3 x4 x5 x6 x7 := by
  funext i
  obtain ⟨b, t, u, v, rfl⟩ : ∃ (b : Fin 4) (t : Fin 300) (u : Fin 100) (v : Fin 1024), i = ix4 b t u v :=
    ⟨i 0, i 1, i 2, i 3, eq_ix4 i⟩
  -- where each operation reads its operands
  have e14l : ∀ d : Fin 512, lidx_main_v14 (ix4 b t u v) d = ix4 b t u d := fun d => funext fun a => by
    match a with | ⟨0, _⟩ => rfl | ⟨1, _⟩ => rfl | ⟨2, _⟩ => rfl | ⟨3, _⟩ => rfl
  have e14r : ∀ d : Fin 512, ridx_main_v14 (ix4 b t u v) d = ix2 d v := fun d => funext fun a => by
    match a with | ⟨0, _⟩ => rfl | ⟨1, _⟩ => rfl
  have e10 : ∀ d : Fin 512, idx_main_v10 (ix4 b t u d) = ix4 b t (0 : Fin 1) d := fun d => funext fun a => by
    match a with | ⟨0, _⟩ => rfl | ⟨1, _⟩ => rfl | ⟨2, _⟩ => rfl | ⟨3, _⟩ => rfl
  have e8 : ∀ d : Fin 512, idx_main_v8 (ix4 b t (0 : Fin 1) d) = ix3 b t d := fun d => funext fun a => by
    match a with | ⟨0, _⟩ => rfl | ⟨1, _⟩ => rfl | ⟨2, _⟩ => rfl
  have e11 : ∀ d : Fin 512, idx_main_v11 (ix4 b t u d) = ix4 b (0 : Fin 1) u d := fun d => funext fun a => by
    match a with | ⟨0, _⟩ => rfl | ⟨1, _⟩ => rfl | ⟨2, _⟩ => rfl | ⟨3, _⟩ => rfl
  have e9 : ∀ d : Fin 512, idx_main_v9 (ix4 b (0 : Fin 1) u d) = ix3 b u d := fun d => funext fun a => by
    match a with | ⟨0, _⟩ => rfl | ⟨1, _⟩ => rfl | ⟨2, _⟩ => rfl
  have e0l : ∀ d k : Fin 512, lidx_main_v0 (ix3 b t d) k = ix3 b t k := fun d k => funext fun a => by
    match a with | ⟨0, _⟩ => rfl | ⟨1, _⟩ => rfl | ⟨2, _⟩ => rfl
  have e0r : ∀ d k : Fin 512, ridx_main_v0 (ix3 b t d) k = ix2 k d := fun d k => funext fun a => by
    match a with | ⟨0, _⟩ => rfl | ⟨1, _⟩ => rfl
  have e2 : ∀ d : Fin 512, idx_main_v2 (ix3 b t d) = ix3 (0 : Fin 1) (0 : Fin 1) d := fun d => funext fun a => by
    match a with | ⟨0, _⟩ => rfl | ⟨1, _⟩ => rfl | ⟨2, _⟩ => rfl
  have e1 : ∀ d : Fin 512, idx_main_v1 (ix3 (0 : Fin 1) (0 : Fin 1) d) = ix1 d := fun d => funext fun a => by
    match a with | ⟨0, _⟩ => rfl
  have e4l : ∀ d k : Fin 512, lidx_main_v4 (ix3 b u d) k = ix3 b u k := fun d k => funext fun a => by
    match a with | ⟨0, _⟩ => rfl | ⟨1, _⟩ => rfl | ⟨2, _⟩ => rfl
  have e4r : ∀ d k : Fin 512, ridx_main_v4 (ix3 b u d) k = ix2 k d := fun d k => funext fun a => by
    match a with | ⟨0, _⟩ => rfl | ⟨1, _⟩ => rfl
  have e6 : ∀ d : Fin 512, idx_main_v6 (ix3 b u d) = ix3 (0 : Fin 1) (0 : Fin 1) d := fun d => funext fun a => by
    match a with | ⟨0, _⟩ => rfl | ⟨1, _⟩ => rfl | ⟨2, _⟩ => rfl
  have e5 : ∀ d : Fin 512, idx_main_v5 (ix3 (0 : Fin 1) (0 : Fin 1) d) = ix1 d := fun d => funext fun a => by
    match a with | ⟨0, _⟩ => rfl
  have e16 : idx_main_v16 (ix4 b t u v) = ix4 (0 : Fin 1) (0 : Fin 1) (0 : Fin 1) v := funext fun a => by
    match a with | ⟨0, _⟩ => rfl | ⟨1, _⟩ => rfl | ⟨2, _⟩ => rfl | ⟨3, _⟩ => rfl
  have e15 : idx_main_v15 (ix4 (0 : Fin 1) (0 : Fin 1) (0 : Fin 1) v) = ix1 v := funext fun a => by
    match a with | ⟨0, _⟩ => rfl
  rw [network_apply, val_main_v17_apply, val_main_v14_apply, val_main_v16_apply, val_main_v15_apply, e16, e15]
  simp only [e14l, e14r, val_main_v13_apply, val_main_v12_apply, val_main_v10_apply, e10, val_main_v8_apply, e8,
    val_main_v3_apply, val_main_v0_apply, e0l, e0r, val_main_v2_apply, e2, val_main_v1_apply, e1,
    val_main_v11_apply, e11, val_main_v9_apply, e9, val_main_v7_apply, val_main_v4_apply, e4l, e4r,
    val_main_v6_apply, e6, val_main_v5_apply, e5]
  rfl

end Cert.ReferenceIdeal.RefValue

end
-- ==== Proof.lean ====
/-
  A TRANSDUCER JOINT NETWORK, as a tiled kernel program and as plain array code, is one function on the extended reals.

  Both programs take encoder rows [4, 300, 512], predictor rows [4, 100, 512], two projections (weights [512, 512], bias
  [512]) and a joint projection (weights [512, 1024], bias [1024]) and return [4, 300, 100, 1024]:

      f(b, t, ·) = enc(b, t, ·) · W_enc + b_enc,        g(b, u, ·) = pred(b, u, ·) · W_pred + b_pred,
      out(b, t, u, v) = Σ_d tanh(f(b, t, d) + g(b, u, d)) · W_joint(d, v) + b_joint(v).

  The reference computes this with three whole-array contractions and broadcasts. The kernel program pads the encoder
  rows to 312 (thirteen tiles of 24), casts the weights to bf16, computes f and g one batch entry per grid point,
  computes the joint term one tile of 24 × 100 rows per grid point — folding the tile into 2400 rows for one matrix
  product — and cuts the result back to 300 rows. On the extended reals a change of float format is the identity and
  every contraction is a finite sum, so tiling and folding only re-index: each launch leaves one whole-array function of
  its inputs (an entry depends on one row of f and one row of g, so blocks of the function are the function of
  blocks), padding rows are never read by a kept entry, and the two programs agree index by index. No law of
  arithmetic beyond that is used, so the finiteness of the inputs is never opened.

  Modules: Spec, Network (the functions); LibPlainDot, LibFoldRows (a matrix product and a row fold at an index);
  Payloads (each kernel body's stored block); Region0, Region1, Region2 (each launch as one function of its arrays);
  PadSlice (padding then cutting back); KernelRun (the program's run with every surviving buffer's final contents);
  KernelValue (the result buffer's contents); RefValue (the reference's result). The frames of the two kernel
  programs and the reference's run are the generated modules'.
-/
import proofs.«126443_j22960895165074_1_alg».proof.Defs
import proofs.«126443_j22960895165074_1_alg».proof.Proof.Gen.Kernel
import proofs.«126443_j22960895165074_1_alg».proof.Proof.Gen.Kernel.Skeleton
import proofs.«126443_j22960895165074_1_alg».proof.Proof.Gen.Kernel.Launch
import proofs.«126443_j22960895165074_1_alg».proof.Proof.Gen.Kernel.Points
import proofs.«126443_j22960895165074_1_alg».proof.Proof.Gen.Kernel.Frame
import proofs.«126443_j22960895165074_1_alg».proof.Proof.Gen.KernelIdeal
import proofs.«126443_j22960895165074_1_alg».proof.Proof.Gen.KernelIdeal.Skeleton
import proofs.«126443_j22960895165074_1_alg».proof.Proof.Gen.KernelIdeal.Launch
import proofs.«126443_j22960895165074_1_alg».proof.Proof.Gen.KernelIdeal.Points
import proofs.«126443_j22960895165074_1_alg».proof.Proof.Gen.KernelIdeal.Frame
import proofs.«126443_j22960895165074_1_alg».proof.Proof.Gen.ReferenceIdeal
import proofs.«126443_j22960895165074_1_alg».proof.Proof.Gen.ReferenceIdeal.Run
import proofs.«126443_j22960895165074_1_alg».proof.Proof.Gen.ReferenceIdeal.Read
import proofs.«126443_j22960895165074_1_alg».proof.Proof.Gen.Pre_finite_inputs
import proofs.«126443_j22960895165074_1_alg».proof.Proof.KernelRun
import proofs.«126443_j22960895165074_1_alg».proof.Proof.KernelValue
import proofs.«126443_j22960895165074_1_alg».proof.Proof.RefValue
import Idealize.ShloMosaic.Adequacy
import Idealize.ShloMosaic.Init

noncomputable section

namespace Cert.Proof

open Idealize.ShloMosaic Idealize.ShloMosaic.TcCoe Idealize.SL.Sem Cert.Joint

/-- The kernel program as printed runs to the end, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- From memories agreeing on the eight arguments both idealized programs end with the network of those arguments in
    their result buffers: the kernel program by reading its segments back from the result, the reference by reading its
    eighteen operations at an index. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Result.result_eq m ρ c), (h c).2⟩)
      (Cert.KernelIdeal.Whole.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, Cert.ReferenceIdeal.RefValue.ref_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
